-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)) (v2 : (c : Dev Cert.KernelIdeal.nD) → Buf (Elt Ideal) ((c.tc : Thread Cert.KernelIdeal.nD Cert.KernelIdeal.τ).loc Cert.KernelIdeal.main_v31_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_v31_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S128x2048 : Shape := ⟨2, ![128, 2048]⟩
abbrev S128 : Shape := ⟨1, ![128]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S128x2048 : S_.BroadcastsInDim S128x2048 (![] : Fin 0 → Fin S128x2048.rank)
  reducesTo_S128x2048_S_d0_1 : S128x2048.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S65536x1024 .f32) (main_arg1 : FVec F S65536x1024 .f32) (main_arg2 : FVec F S128x2048 .f32) (main_arg3 : FVec F S128 .f32) (main_arg4 : FVec F S128 .f32) (main_arg5 : FVec F S128 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S65536x1024 .f32 := Host.absf main_arg1
  let main_cst_0 : FVec F S_ .f32 := constant S_ .f32 0x7F800000#32
  let main_v5 : FVec F S65536x1024 .f32 := broadcastInDim S65536x1024 ![] bcast_S_S65536x1024 main_cst_0
  let main_v6 : IVec S65536x1024 1 := cmpf .olt main_v4 main_v5
  let main_c_1 : IVec S_ 1 := constantI S_ 1 1#1
  let main_v7 : IVec S_ 1 := (fun x v => Host.reduce IntOp.andi x v reducesTo_S65536x1024_S_d0_1 h_S_) main_v6 main_c_1
  let main_v8 : IVec S_ 1 := andi main_v3 main_v7
  let main_v9 : FVec F S128x2048 .f32 := Host.absf main_arg2
  let main_cst_2 : FVec F S_ .f32 := constant S_ .f32 0x7F800000#32
  let main_v10 : FVec F S128x2048 .f32 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S65536x1024 : Shape := ⟨2, ![65536, 1024]⟩
abbrev S128x2048 : Shape := ⟨2, ![128, 2048]⟩
abbrev S128 : Shape := ⟨1, ![128]⟩
abbrev S128x1024 : Shape := ⟨2, ![128, 1024]⟩
abbrev S_ : Shape := ⟨0, ![]⟩
abbrev S128x1 : Shape := ⟨2, ![128, 1]⟩
abbrev S1024x128 : Shape := ⟨2, ![1024, 128]⟩
abbrev S1x128 : Shape := ⟨2, ![1, 128]⟩
abbrev S65536x128 : Shape := ⟨2, ![65536, 128]⟩
abbrev S1024x1024 : Shape := ⟨2, ![1024, 1024]⟩

abbrev nBuf : Space → Nat
  | .hbm => 46
  | .vmem => 15
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S128x2048, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x1024, .f32⟩
  | .hbm, ⟨7, _⟩ => ⟨S_, .f32⟩
  | .hbm, ⟨8, _⟩ => ⟨S128, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S_, .f32⟩
  | .hbm, ⟨17, _⟩ => ⟨S128, .f32⟩
  | .hbm, ⟨18, _⟩ => ⟨S128x1, .f32⟩
  | .hbm, ⟨19, _⟩ => ⟨S128x1, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128, .f32⟩
  | .hbm, ⟨25, _⟩ => ⟨S128x1, .f32⟩
  | .hbm, ⟨26, _⟩ => ⟨S_, .f32⟩
  | .hbm, ⟨27, _⟩ => ⟨S128x1, .f32⟩
  | .hbm, ⟨28, _⟩ => ⟨S128x1, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128, .f32⟩
  | .hbm, ⟨34, _⟩ => ⟨S128x1, .f32⟩
  | .hbm, ⟨35, _⟩ => ⟨S128x1, .f32⟩
  | .hbm, ⟨36, _⟩ => ⟨S128x1024, .f32⟩
  | .hbm, ⟨37, _⟩ => ⟨S128x1024, .f32⟩
  | .hbm, ⟨38, _⟩ => ⟨S1024x128, .f32⟩
  | .hbm, ⟨39, _⟩ => ⟨S1024x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S65536x128, .f32⟩
  | .hbm, ⟨44, _⟩ => ⟨S65536x128, .f32⟩
  | .hbm, ⟨45, _⟩ => ⟨S65536x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x128, .f32⟩
  | .local _ .vmem, ⟨5, _⟩ => ⟨S1024x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31_0 : Ref sig .tc := ⟨.hbm, 43, rfl⟩
abbrev main_v31_1 : Ref sig .tc := ⟨.hbm, 44, rfl⟩
abbrev main_v31_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S128x2048_S128x1024_0_0 : S128x2048.Slices ![0, 0] S128x1024
  reducesTo_S128x1024_S128_d1 : S128x1024.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x1024_0_1 : S128x1.BroadcastsInDim S128x1024 (![0, 1] : Fin 2 → Fin S128x1024.rank)
  slices_S128x2048_S128x1024_0_1024 : S128x2048.Slices ![0, 1024] S128x1024
  transposes_S128x1024_S1024x128_1_0 : S128x1024.Transposes [1, 0] S1024x128
  shapeCasts_S128_S1x128 : S128.ShapeCasts S1x128
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S65536x1024.size a
  hwx0_1 : ∀ i : grid0.Coords, EltTy.bits .f32 = 32 ∨ (Rect.block (s := S65536x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .f32 = 32 ∨ (Rect.block (s := S1024x128) S1024x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S65536x128.size a
  hwx0_7 : ∀ i : grid0.Coords, EltTy.bits .f32 = 32 ∨ (Rect.block (s := S65536x128) S1024x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x128.size a ≤ S65536x128.size a
  hwx0_8 : ∀ i : grid0.Coords, EltTy.bits .f32 = 32 ∨ (Rect.block (s := S65536x128) S1024x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x128.size a ≤ S65536x128.size a
  hwx0_9 : ∀ i : grid0.Coords, EltTy.bits .f32 = 32 ∨ (Rect.block (s := S65536x128) S1024x128.size (cc0_transform_9 i) (hinb0_9 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31_0) S1024x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v31_1) S1024x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v31_2) S1024x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S128x2048 : Shape := ⟨2, ![128, 2048]⟩
abbrev S128 : Shape := ⟨1, ![128]⟩
abbrev S128x1024 : Shape := ⟨2, ![128, 1024]⟩
abbrev S_ : Shape := ⟨0, ![]⟩
abbrev S128x1 : Shape := ⟨2, ![128, 1]⟩
abbrev S1024x128 : Shape := ⟨2, ![1024, 128]⟩
abbrev S65536x128 : Shape := ⟨2, ![65536, 128]⟩
abbrev S1x128 : Shape := ⟨2, ![1, 128]⟩

abbrev nBuf : Space → Nat
  | .hbm => 52
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S128x2048, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x1024, .f32⟩
  | .hbm, ⟨7, _⟩ => ⟨S_, .f32⟩
  | .hbm, ⟨8, _⟩ => ⟨S128, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S_, .f32⟩
  | .hbm, ⟨17, _⟩ => ⟨S128, .f32⟩
  | .hbm, ⟨18, _⟩ => ⟨S128x1, .f32⟩
  | .hbm, ⟨19, _⟩ => ⟨S128x1, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128, .f32⟩
  | .hbm, ⟨25, _⟩ => ⟨S128x1, .f32⟩
  | .hbm, ⟨26, _⟩ => ⟨S_, .f32⟩
  | .hbm, ⟨27, _⟩ => ⟨S128x1, .f32⟩
  | .hbm, ⟨28, _⟩ => ⟨S128x1, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128, .f32⟩
  | .hbm, ⟨34, _⟩ => ⟨S128x1, .f32⟩
  | .hbm, ⟨35, _⟩ => ⟨S128x1, .f32⟩
  | .hbm, ⟨36, _⟩ => ⟨S128x1024, .f32⟩
  | .hbm, ⟨37, _⟩ => ⟨S128x1024, .f32⟩
  | .hbm, ⟨38, _⟩ => ⟨S1024x128, .f32⟩
  | .hbm, ⟨39, _⟩ => ⟨S65536x128, .f32⟩
  | .hbm, ⟨40, _⟩ => ⟨S1024x128, .f32⟩
  | .hbm, ⟨41, _⟩ => ⟨S65536x128, .f32⟩
  | .hbm, ⟨42, _⟩ => ⟨S1x128, .f32⟩
  | .hbm, ⟨43, _⟩ => ⟨S65536x128, .f32⟩
  | .hbm, ⟨44, _⟩ => ⟨S65536x128, .f32⟩
  | .hbm, ⟨45, _⟩ => ⟨S1x128, .f32⟩
  | .hbm, ⟨46, _⟩ => ⟨S65536x128, .f32⟩
  | .hbm, ⟨47, _⟩ => ⟨S65536x128, .f32⟩
  | .hbm, ⟨48, _⟩ => ⟨S65536x128, .f32⟩
  | .hbm, ⟨49, _⟩ => ⟨S1x128, .f32⟩
  | .hbm, ⟨50, _⟩ => ⟨S65536x128, .f32⟩
  | .hbm, ⟨51, _⟩ => ⟨S65536x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]

class Facts₀ : Prop where
  slices_S128x2048_S128x1024_0_0 : S128x2048.Slices ![0, 0] S128x1024
  reducesTo_S128x1024_S128_d1 : S128x1024.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x1024_0_1 : S128x1.BroadcastsInDim S128x1024 (![0, 1] : Fin 2 → Fin S128x1024.rank)
  slices_S128x2048_S128x1024_0_1024 : S128x2048.Slices ![0, 1024] S128x1024
  transposes_S128x1024_S1024x128_1_0 : S128x1024.Transposes [1, 0] S1024x128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  dot_S65536x1024_S1024x128_S65536x128_1_0_0_1_n_n_wf : DotDims.WF S65536x1024 S1024x128 S65536x128 [1] [0] [0] [1] [] []

variable [Facts₀]

def dot_S65536x1024_S1024x128_S65536x128_1_0_0_1_n_n : DotDims S65536x1024 S1024x128 S65536x128 where
  lhsContracting := [1]
  rhsContracting := [0]
  lhsNonContracting := [0]
  rhsNonContracting := [1]
  lhsBatch := []
  rhsBatch := []
  wf := dot_S65536x1024_S1024x128_S65536x128_1_0_0_1_n_n_wf

class Facts : Prop extends Facts₀ where

variable [Facts]
-- ==== Proof.Spec.lean ====
/-
  The mathematics of the certificate, stated over plain arrays with no program in sight.

  Two weight matrices `w0, w1 : [1024, 128]` are applied to two activation arrays `x, y : [65536, 1024]`:
  `proj x w` is the matrix product, entry `(r, j)` the sum over `k` of `x[r, k] · w[k, j]`. The third result mixes the
  two products lane by lane: `proj x w0 · a0[j] + proj y w1 · a1[j] + b[j]`, the three lane vectors read at the
  entry's column. Nothing here needs an entry to be finite: only the definitions are compared, never rearranged.
-/
import Idealize.ShloMosaic.PureOps.Ideal
import Idealize.ShloMosaic.PureOps.Ideal.Laws
import Idealize.ShloMosaic.Lib.ValueIdx

noncomputable section

namespace Cert.TwoProj

open Idealize.ShloMosaic Idealize.ShloMosaic.ValueIdx

/-- Activations, weights, results. -/
abbrev SX : Shape := ⟨2, ![65536, 1024]⟩
abbrev SW : Shape := ⟨2, ![1024, 128]⟩
abbrev SO : Shape := ⟨2, ![65536, 128]⟩

/-- Entry `(r, k)` of an activation array, `r` the row of the result entry `i`. -/
abbrev rowIdx (i : SO.Idx) (k : Fin 1024) : SX.Idx := fun a => match a with
  | ⟨0, _⟩ => ⟨(i 0).val, (i 0).isLt⟩
  | ⟨1, _⟩ => ⟨k.val, k.isLt⟩

/-- Entry `(k, j)` of a weight matrix, `j` the column of the result entry `i`. -/
abbrev colIdx (i : SO.Idx) (k : Fin 1024) : SW.Idx := fun a => match a with
  | ⟨0, _⟩ => ⟨k.val, k.isLt⟩
  | ⟨1, _⟩ => ⟨(i 1).val, (i 1).isLt⟩

/-- The column of a result entry, as a lane number. -/
abbrev lane (i : SO.Idx) : Fin 128 := ⟨(i 1).val, (i 1).isLt⟩

/-- The matrix product `x · w`: entry `(r, j)` is `∑ k, x[r, k] · w[k, j]`. -/
def proj (x : SX.Idx → EReal) (w : SW.Idx → EReal) : SO.Idx → EReal :=
  fun i => ∑ k : Fin 1024, x (rowIdx i k) * w (colIdx i k)

/-- The mixed result: `(x · w0) · a0 + (y · w1) · a1 + b`, the lane vectors read at the entry's column. -/
def fused (x y : SX.Idx → EReal) (w0 w1 : SW.Idx → EReal) (a0 a1 b : Fin 128 → EReal) : SO.Idx → EReal :=
  fun i => proj x w0 i * a0 (lane i) + proj y w1 i * a1 (lane i) + b (lane i)

end Cert.TwoProj

end
-- ==== Proof.KernelBody.lean ====
/-
  What the kernel body computes at one grid point, entry by entry, on the extended reals.

  The body loads a block of 1024 rows of each activation array, the two whole weight matrices and the three lane
  vectors (as rows `[1, 128]`). Its two matrix products start from a zero accumulator, so entry `(p, q)` of each is
  the plain sum over `k` of `block[p, k] · w[k, q]` (the roundings to bf16 on the way in are the identity here). The
  third store is `product0 · a0 + product1 · a1 + b` with each row vector spread down the 1024 rows, so at entry
  `(p, q)` it reads the vectors at `(0, q)`.
-/
import proofs.«167915_j7327214207194_1_alg».proof.Proof.Gen.KernelIdeal.Value
import Idealize.ShloMosaic.Lib.ValueIdx
import Idealize.ShloMosaic.Lib.Pipeline.Value
import Idealize.ShloMosaic.PureOps.Ideal.Laws
import Idealize.ShloMosaic.Lib.Tactic

noncomputable section

namespace Cert.KernelIdeal.Body

open Cert.KernelIdeal Cert.KernelIdeal.Gen Idealize.ShloMosaic Idealize.ShloMosaic.ValueIdx

/-- Entry `(p, k)` of the activation block, `p` the row of the block entry `j`. -/
abbrev lrow (j : S1024x128.Idx) (k : Fin 1024) : S1024x1024.Idx := fun a => match a with
  | ⟨0, _⟩ => ⟨(j 0).val, (j 0).isLt⟩
  | ⟨1, _⟩ => ⟨k.val, k.isLt⟩

/-- Entry `(k, q)` of the weight matrix, `q` the column of the block entry `j`. -/
abbrev rcol (j : S1024x128.Idx) (k : Fin 1024) : S1024x128.Idx := fun a => match a with
  | ⟨0, _⟩ => ⟨k.val, k.isLt⟩
  | ⟨1, _⟩ => ⟨(j 1).val, (j 1).isLt⟩

/-- Entry `(0, q)` of a row vector, `q` the column of the block entry `j`. -/
abbrev rowAt (j : S1024x128.Idx) : S1x128.Idx := fun a => match a with
  | ⟨0, _⟩ => ⟨0, Nat.one_pos⟩
  | ⟨1, _⟩ => ⟨(j 1).val, (j 1).isLt⟩

/-! ## The operand indices of the block product -/

theorem lhs_0 (j : S1024x128.Idx) (q : dot_S1024x1024_S1024x128_S1024x128_1_0_0_1_n_n.contr.Idx) :
    (dot_S1024x1024_S1024x128_S1024x128_1_0_0_1_n_n.lhsIdx j q 0).val = (j 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_1 (j : S1024x128.Idx) (q : dot_S1024x1024_S1024x128_S1024x128_1_0_0_1_n_n.contr.Idx) :
    (dot_S1024x1024_S1024x128_S1024x128_1_0_0_1_n_n.lhsIdx j q 1).val = (q ⟨0, by decide⟩).val :=
  dot_S1024x1024_S1024x128_S1024x128_1_0_0_1_n_n.lhsIdx_val_of_single rfl j q
theorem rhs_0 (j : S1024x128.Idx) (q : dot_S1024x1024_S1024x128_S1024x128_1_0_0_1_n_n.contr.Idx) :
    (dot_S1024x1024_S1024x128_S1024x128_1_0_0_1_n_n.rhsIdx j q 0).val = (q ⟨0, by decide⟩).val :=
  dot_S1024x1024_S1024x128_S1024x128_1_0_0_1_n_n.rhsIdx_val_of_single rfl j q
theorem rhs_1 (j : S1024x128.Idx) (q : dot_S1024x1024_S1024x128_S1024x128_1_0_0_1_n_n.contr.Idx) :
    (dot_S1024x1024_S1024x128_S1024x128_1_0_0_1_n_n.rhsIdx j q 1).val = (j 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- A block product into the zero accumulator, read at an entry: the sum over the contracted axis. -/
theorem blockProduct_apply (l : FVec Ideal S1024x1024 .bf16) (r : FVec Ideal S1024x128 .bf16) (j : S1024x128.Idx) :
    matmul dot_S1024x1024_S1024x128_S1024x128_1_0_0_1_n_n none l r (constant (F := Ideal) S1024x128 .f32 0x00000000#32) j
      = ∑ k : Fin 1024, l (lrow j k) * r (rcol j k) := by
  simp only [matmul]
  rw [Ideal.matmul_constant_zero_apply, ← Equiv.sum_comp (ValueIdx.contrEquiv1 dot_S1024x1024_S1024x128_S1024x128_1_0_0_1_n_n 1024 rfl rfl).symm]
  refine Finset.sum_congr rfl fun k _ => ?_
  have hk := ValueIdx.contrEquiv1_symm_val dot_S1024x1024_S1024x128_S1024x128_1_0_0_1_n_n 1024 rfl rfl k
  have el : dot_S1024x1024_S1024x128_S1024x128_1_0_0_1_n_n.lhsIdx j ((ValueIdx.contrEquiv1 dot_S1024x1024_S1024x128_S1024x128_1_0_0_1_n_n 1024 rfl rfl).symm k) = lrow j k := funext fun a => Fin.ext (by
    match a with
    | ⟨0, _⟩ => exact lhs_0 _ _
    | ⟨1, _⟩ => exact (lhs_1 _ _).trans hk)
  have er : dot_S1024x1024_S1024x128_S1024x128_1_0_0_1_n_n.rhsIdx j ((ValueIdx.contrEquiv1 dot_S1024x1024_S1024x128_S1024x128_1_0_0_1_n_n 1024 rfl rfl).symm k) = rcol j k := funext fun a => Fin.ext (by
    match a with
    | ⟨0, _⟩ => exact (rhs_0 _ _).trans hk
    | ⟨1, _⟩ => exact rhs_1 _ _)
  rw [el, er]

/-- The first product's payload at an entry. -/
theorem pay1_apply (x0 : Vec Ideal S1024x1024 .f32) (x2 : Vec Ideal S1024x128 .f32) (j : S1024x128.Idx) :
    k0_pay1 (F := Ideal) x0 x2 j = ∑ k : Fin 1024, x0 (lrow j k) * x2 (rcol j k) := by
  unfold k0_pay1
  refine (blockProduct_apply _ _ j).trans (Finset.sum_congr rfl fun k _ => ?_)
  show x0 (lrow j k) * shapeCast S1024x128 x2 shapeCasts_S1024x128_S1024x128 (rcol j k) = _
  rw [shapeCast_self]

/-- The second product's payload at an entry. -/
theorem pay2_apply (x1 : Vec Ideal S1024x1024 .f32) (x3 : Vec Ideal S1024x128 .f32) (j : S1024x128.Idx) :
    k0_pay2 (F := Ideal) x1 x3 j = ∑ k : Fin 1024, x1 (lrow j k) * x3 (rcol j k) := by
  unfold k0_pay2
  refine (blockProduct_apply _ _ j).trans (Finset.sum_congr rfl fun k _ => ?_)
  show x1 (lrow j k) * shapeCast S1024x128 x3 shapeCasts_S1024x128_S1024x128 (rcol j k) = _
  rw [shapeCast_self]

/-- The third store at an entry: the two products scaled lane by lane, added, plus the bias row. -/
theorem mixed_apply (P0 : Vec Ideal S1024x1024 .f32) (P1 : Vec Ideal S1024x128 .f32) (P2 : Vec Ideal S1x128 .f32)
    (P3 : Vec Ideal S1024x1024 .f32) (P4 : Vec Ideal S1024x128 .f32) (P5 P6 : Vec Ideal S1x128 .f32) (j : S1024x128.Idx) :
    Cert.KernelIdeal.Value.E9 (F := Ideal) P0 P1 P2 P3 P4 P5 P6 j
      = (∑ k : Fin 1024, P0 (lrow j k) * P1 (rcol j k)) * P2 (rowAt j)
        + (∑ k : Fin 1024, P3 (lrow j k) * P4 (rcol j k)) * P5 (rowAt j) + P6 (rowAt j) := by
  have e0 : Cert.KernelIdeal.Value.ix9_0 j = j := funext fun a => Fin.ext (by
    match a with
    | ⟨0, _⟩ => rfl
    | ⟨1, _⟩ => rfl)
  show (k0_pay1 P0 P1 (Cert.KernelIdeal.Value.ix9_0 j)) * P2 (rowAt j) + (k0_pay2 P3 P4 (Cert.KernelIdeal.Value.ix9_0 j)) * P5 (rowAt j) + P6 (rowAt j) = _
  rw [e0, pay1_apply, pay2_apply]

/-! ## What the body leaves in each result's buffer, entry by entry -/

theorem hz : (![0, 0] : Fin 2 → Nat) = fun _ => 0 := funext fun a => by fin_cases a <;> rfl

/-- The first result's buffer after the body: the first product of the loaded blocks. -/
theorem store1_apply (x0 x1 : Vec Ideal S1024x1024 .f32) (x2 x3 : Vec Ideal S1024x128 .f32) (x4 x5 x6 : Vec Ideal S1x128 .f32)
    (j : S1024x128.Idx) :
    out0_7 (F := Ideal) x0 x1 x2 x3 x4 x5 x6 j = ∑ k : Fin 1024, x0 (lrow j k) * x2 (rcol j k) := by
  unfold out0_7
  rw [View.canon_unit_zero hz]
  simp only [View.ld_unit_zero (S := S1024x1024) hz, View.ld_unit_zero (S := S1024x128) hz]
  exact pay1_apply x0 x2 j

/-- The second result's buffer after the body: the second product of the loaded blocks. -/
theorem store2_apply (x0 x1 : Vec Ideal S1024x1024 .f32) (x2 x3 : Vec Ideal S1024x128 .f32) (x4 x5 x6 : Vec Ideal S1x128 .f32)
    (j : S1024x128.Idx) :
    out0_8 (F := Ideal) x0 x1 x2 x3 x4 x5 x6 j = ∑ k : Fin 1024, x1 (lrow j k) * x3 (rcol j k) := by
  unfold out0_8
  rw [View.canon_unit_zero hz]
  simp only [View.ld_unit_zero (S := S1024x1024) hz, View.ld_unit_zero (S := S1024x128) hz]
  exact pay2_apply x1 x3 j

/-- The third result's buffer after the body: the two products scaled lane by lane, added, plus the bias row. -/
theorem store3_apply (x0 x1 : Vec Ideal S1024x1024 .f32) (x2 x3 : Vec Ideal S1024x128 .f32) (x4 x5 x6 : Vec Ideal S1x128 .f32)
    (j : S1024x128.Idx) :
    out0_9 (F := Ideal) x0 x1 x2 x3 x4 x5 x6 j
      = (∑ k : Fin 1024, x0 (lrow j k) * x2 (rcol j k)) * x4 (rowAt j)
        + (∑ k : Fin 1024, x1 (lrow j k) * x3 (rcol j k)) * x5 (rowAt j) + x6 (rowAt j) := by
  unfold out0_9
  simp only [View.ld_unit_zero (S := S1024x1024) hz, View.ld_unit_zero (S := S1024x128) hz, View.ld_unit_zero (S := S1x128) hz]
  exact (Cert.KernelIdeal.Value.canon9_eq x0 x2 x4 x1 x3 x5 x6 j).trans (mixed_apply x0 x2 x4 x1 x3 x5 x6 j)

end Cert.KernelIdeal.Body

end
-- ==== Proof.Blocks.lean ====
/-
  The blocks one grid point reads, as entries of the arrays the region finds.

  The grid has 64 points. Point `t` reads rows `1024·t … 1024·t + 1023` of each activation array and, whatever `t`,
  the whole of each weight matrix and of each lane row. So the point's sum over `k` of activation block times weight
  matrix, at block entry `(p, q)`, is the whole matrix product at array entry `(1024·t + p, q)`, and a lane row's block
  at `(0, q)` is the row at `(0, q)`.
-/
import proofs.«167915_j7327214207194_1_alg».proof.Proof.Gen.KernelIdeal.Value
import proofs.«167915_j7327214207194_1_alg».proof.Proof.Spec
import proofs.«167915_j7327214207194_1_alg».proof.Proof.KernelBody
import Idealize.ShloMosaic.Lib.Pipeline.Value
import Idealize.ShloMosaic.Lib.Tactic

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.TwoProj

variable (m : (ℓ : Loc nD τ sig) → Buf (Elt Ideal) ℓ) (ρ : Dev nD → PrngReg)

/-- The index maps over the grid: the activations and the results move with the point along the rows, everything
    else stays at block `(0, 0)`. -/
theorem idx_facts : ∀ t : Fin cfg0.N,
    win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The arrays the region finds, and the blocks a point reads of them -/

abbrev aX (c : Dev nD) : S65536x1024.Idx → EReal := V m c main_arg0
abbrev aY (c : Dev nD) : S65536x1024.Idx → EReal := V m c main_arg1
abbrev aW0 (c : Dev nD) : S1024x128.Idx → EReal := V m c main_v26
abbrev aW1 (c : Dev nD) : S1024x128.Idx → EReal := V m c main_v27
abbrev aA0 (c : Dev nD) : S1x128.Idx → EReal := V m c main_v28
abbrev aA1 (c : Dev nD) : S1x128.Idx → EReal := V m c main_v29
abbrev aB (c : Dev nD) : S1x128.Idx → EReal := V m c main_v30

/-- The blocks point `t` reads of them. -/
abbrev bX (c : Dev nD) (t : Fin cfg0.N) : S1024x1024.Idx → EReal := iblk m c 0 t
abbrev bY (c : Dev nD) (t : Fin cfg0.N) : S1024x1024.Idx → EReal := iblk m c 1 t
abbrev bW0 (c : Dev nD) (t : Fin cfg0.N) : S1024x128.Idx → EReal := iblk m c 2 t
abbrev bW1 (c : Dev nD) (t : Fin cfg0.N) : S1024x128.Idx → EReal := iblk m c 3 t
abbrev bA0 (c : Dev nD) (t : Fin cfg0.N) : S1x128.Idx → EReal := iblk m c 4 t
abbrev bA1 (c : Dev nD) (t : Fin cfg0.N) : S1x128.Idx → EReal := iblk m c 5 t
abbrev bB (c : Dev nD) (t : Fin cfg0.N) : S1x128.Idx → EReal := iblk m c 6 t

/-- Entry `(0, q)` of a lane row. -/
abbrev rowEntry (q : Fin 128) : S1x128.Idx := fun a => match a with
  | ⟨0, _⟩ => ⟨0, Nat.one_pos⟩
  | ⟨1, _⟩ => ⟨q.val, q.isLt⟩

/-- Point `t`'s sum over `k` of its first activation block times the first weight matrix, at the block entry
    `j`, is the whole product at the array entry `i` the block entry sits at. -/
theorem prod0_at (c : Dev nD) (t : Fin cfg0.N) (j : S1024x128.Idx) (i : S65536x128.Idx)
    (h0 : (i 0).val = t.val * 1024 + (j 0).val) (h1 : (i 1).val = (j 1).val) :
    (∑ k : Fin 1024, bX m c t (Body.lrow j k) * bW0 m c t (Body.rcol j k))
      = proj (aX m c) (aW0 m c) i := by
  obtain ⟨-, -, -, -, -, -, e00, e01, -, -, e20, e21, -⟩ := idx_facts t
  refine Finset.sum_congr rfl fun k _ => ?_
  show aX m c (((cfg0.win 0).blk t).view.emb (Body.lrow j k)) * aW0 m c (((cfg0.win 2).blk t).view.emb (Body.rcol j k))
      = aX m c (rowIdx i k) * aW0 m c (colIdx i k)
  have hl : ((cfg0.win 0).blk t).view.emb (Body.lrow j k) = rowIdx i k := by
    funext a; apply Fin.ext
    match a with
    | ⟨0, _⟩ => show win0_0.index t (0 : Fin 2) * 1024 + 1 * (j 0).val = (i 0).val; omega
    | ⟨1, _⟩ => show win0_0.index t (1 : Fin 2) * 1024 + 1 * k.val = k.val; omega
  have hr : ((cfg0.win 2).blk t).view.emb (Body.rcol j k) = colIdx i k := by
    funext a; apply Fin.ext
    match a with
    | ⟨0, _⟩ => show win0_2.index t (0 : Fin 2) * 1024 + 1 * k.val = k.val; omega
    | ⟨1, _⟩ => show win0_2.index t (1 : Fin 2) * 128 + 1 * (j 1).val = (i 1).val; omega
  rw [hl, hr]

/-- The same for the second activation block and the second weight matrix. -/
theorem prod1_at (c : Dev nD) (t : Fin cfg0.N) (j : S1024x128.Idx) (i : S65536x128.Idx)
    (h0 : (i 0).val = t.val * 1024 + (j 0).val) (h1 : (i 1).val = (j 1).val) :
    (∑ k : Fin 1024, bY m c t (Body.lrow j k) * bW1 m c t (Body.rcol j k))
      = proj (aY m c) (aW1 m c) i := by
  obtain ⟨-, -, -, -, -, -, -, -, e10, e11, -, -, e30, e31, -⟩ := idx_facts t
  refine Finset.sum_congr rfl fun k _ => ?_
  show aY m c (((cfg0.win 1).blk t).view.emb (Body.lrow j k)) * aW1 m c (((cfg0.win 3).blk t).view.emb (Body.rcol j k))
      = aY m c (rowIdx i k) * aW1 m c (colIdx i k)
  have hl : ((cfg0.win 1).blk t).view.emb (Body.lrow j k) = rowIdx i k := by
    funext a; apply Fin.ext
    match a with
    | ⟨0, _⟩ => show win0_1.index t (0 : Fin 2) * 1024 + 1 * (j 0).val = (i 0).val; omega
    | ⟨1, _⟩ => show win0_1.index t (1 : Fin 2) * 1024 + 1 * k.val = k.val; omega
  have hr : ((cfg0.win 3).blk t).view.emb (Body.rcol j k) = colIdx i k := by
    funext a; apply Fin.ext
    match a with
    | ⟨0, _⟩ => show win0_3.index t (0 : Fin 2) * 1024 + 1 * k.val = k.val; omega
    | ⟨1, _⟩ => show win0_3.index t (1 : Fin 2) * 128 + 1 * (j 1).val = (i 1).val; omega
  rw [hl, hr]

/-- Each lane row's block is the row itself: the block entry under `j` is the row's entry at `i`'s column. -/
theorem rows_at (c : Dev nD) (t : Fin cfg0.N) (j : S1024x128.Idx) (i : S65536x128.Idx) (h1 : (i 1).val = (j 1).val) :
    bA0 m c t (Body.rowAt j) = aA0 m c (rowEntry (lane i))
    ∧ bA1 m c t (Body.rowAt j) = aA1 m c (rowEntry (lane i))
    ∧ bB m c t (Body.rowAt j) = aB m c (rowEntry (lane i)) := by
  obtain ⟨-, -, -, -, -, -, -, -, -, -, -, -, -, -, e40, e41, e50, e51, e60, e61⟩ := idx_facts t
  refine ⟨?_, ?_, ?_⟩
  · show aA0 m c (((cfg0.win 4).blk t).view.emb (Body.rowAt j)) = _
    refine congrArg (aA0 m c) ?_
    funext a; apply Fin.ext
    match a with
    | ⟨0, _⟩ => show win0_4.index t (0 : Fin 2) * 1 + 1 * 0 = 0; omega
    | ⟨1, _⟩ => show win0_4.index t (1 : Fin 2) * 128 + 1 * (j 1).val = (i 1).val; omega
  · show aA1 m c (((cfg0.win 5).blk t).view.emb (Body.rowAt j)) = _
    refine congrArg (aA1 m c) ?_
    funext a; apply Fin.ext
    match a with
    | ⟨0, _⟩ => show win0_5.index t (0 : Fin 2) * 1 + 1 * 0 = 0; omega
    | ⟨1, _⟩ => show win0_5.index t (1 : Fin 2) * 128 + 1 * (j 1).val = (i 1).val; omega
  · show aB m c (((cfg0.win 6).blk t).view.emb (Body.rowAt j)) = _
    refine congrArg (aB m c) ?_
    funext a; apply Fin.ext
    match a with
    | ⟨0, _⟩ => show win0_6.index t (0 : Fin 2) * 1 + 1 * 0 = 0; omega
    | ⟨1, _⟩ => show win0_6.index t (1 : Fin 2) * 128 + 1 * (j 1).val = (i 1).val; omega

end Cert.KernelIdeal.Whole

end
-- ==== Proof.Result0.lean ====
/-
  Result 0, block by block: what grid point `t` writes back is block `t` of the first matrix product of the arrays
  the region finds, and row `r` of the result lies in the block of point `r / 1024`, so the blocks cover the array.
-/
import proofs.«167915_j7327214207194_1_alg».proof.Proof.Blocks

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.TwoProj

variable (m : (ℓ : Loc nD τ sig) → Buf (Elt Ideal) ℓ) (ρ : Dev nD → PrngReg)

/-! ## Result 0 -/

/-- What point `t` writes back to result 0 is block `t` of the product of the first activation array and the first
    weight matrix, as the region finds them. -/
theorem flushed7_eq (c : Dev nD) (t : Fin cfg0.N) :
    (dats m 0 c).flushed 7 t
      = ((cfg0.win 7).blk t).view.read (Elt Ideal) (proj (aX m c) (aW0 m c)) := by
  rw [Cert.KernelIdeal.Value.flushed7]
  obtain ⟨e70, e71, e80, e81, e90, e91, -⟩ := idx_facts t
  funext j
  show out0_7 (F := Ideal) (bX m c t) (bY m c t) (bW0 m c t) (bW1 m c t) (bA0 m c t) (bA1 m c t) (bB m c t) j
      = proj (aX m c) (aW0 m c) (((cfg0.win 7).blk t).view.emb j)
  refine (Body.store1_apply (bX m c t) (bY m c t) (bW0 m c t) (bW1 m c t) (bA0 m c t) (bA1 m c t) (bB m c t) j).trans ?_
  refine prod0_at m c t j _ ?_ ?_
  · show win0_7.index t (0 : Fin 2) * 1024 + 1 * (j 0).val = t.val * 1024 + (j 0).val; omega
  · show win0_7.index t (1 : Fin 2) * 128 + 1 * (j 1).val = (j 1).val; omega

/-- An entry of result 0 is in point `t`'s block iff its row is among the point's 1024 rows. -/
theorem mem_blk7 (t : Fin cfg0.N) (i : S65536x128.Idx) :
    i ∈ ((cfg0.win 7).blk t).view.set ↔ ∀ a : Fin 2, win0_7.index t a * S1024x128.size a ≤ (i a).val ∧ (i a).val < win0_7.index t a * S1024x128.size a + S1024x128.size a := by
  show i ∈ ((View.whole main_v31_0).slice (win0_7.rect t)).set ↔ _
  rw [View.set_slice_whole, Rect.mem_set_unit]
  exact Iff.rfl

/-- Row `r` of result 0 is written by point `r / 1024`. -/
theorem cover7 (i : S65536x128.Idx) :
    ∃ t : Fin cfg0.N, (cfg0.win 7).flush t = true ∧ i ∈ ((cfg0.win 7).blk t).view.set := by
  have hi0 : (i 0).val < 65536 := (i 0).isLt
  have hi1 : (i 1).val < 128 := (i 1).isLt
  obtain ⟨t, ht⟩ : ∃ t : Fin cfg0.N, t.val = (i 0).val / 1024 :=
    ⟨⟨(i 0).val / 1024, by rw [show cfg0.N = 64 from N_0]; omega⟩, rfl⟩
  obtain ⟨e70, e71, e80, e81, e90, e91, -⟩ := idx_facts t
  refine ⟨t, flush0_7 t, ?_⟩
  rw [mem_blk7]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 128 ≤ (i 1).val ∧ (i 1).val < win0_7.index t (1 : Fin 2) * 128 + 128; omega

end Cert.KernelIdeal.Whole

end
-- ==== Proof.Result1.lean ====
/-
  Result 1, block by block: what grid point `t` writes back is block `t` of the second matrix product of the arrays
  the region finds, and row `r` of the result lies in the block of point `r / 1024`, so the blocks cover the array.
-/
import proofs.«167915_j7327214207194_1_alg».proof.Proof.Blocks

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.TwoProj

variable (m : (ℓ : Loc nD τ sig) → Buf (Elt Ideal) ℓ) (ρ : Dev nD → PrngReg)

/-! ## Result 1 -/

/-- What point `t` writes back to result 1 is block `t` of the product of the second activation array and the second
    weight matrix, as the region finds them. -/
theorem flushed8_eq (c : Dev nD) (t : Fin cfg0.N) :
    (dats m 0 c).flushed 8 t
      = ((cfg0.win 8).blk t).view.read (Elt Ideal) (proj (aY m c) (aW1 m c)) := by
  rw [Cert.KernelIdeal.Value.flushed8]
  obtain ⟨e70, e71, e80, e81, e90, e91, -⟩ := idx_facts t
  funext j
  show out0_8 (F := Ideal) (bX m c t) (bY m c t) (bW0 m c t) (bW1 m c t) (bA0 m c t) (bA1 m c t) (bB m c t) j
      = proj (aY m c) (aW1 m c) (((cfg0.win 8).blk t).view.emb j)
  refine (Body.store2_apply (bX m c t) (bY m c t) (bW0 m c t) (bW1 m c t) (bA0 m c t) (bA1 m c t) (bB m c t) j).trans ?_
  refine prod1_at m c t j _ ?_ ?_
  · show win0_8.index t (0 : Fin 2) * 1024 + 1 * (j 0).val = t.val * 1024 + (j 0).val; omega
  · show win0_8.index t (1 : Fin 2) * 128 + 1 * (j 1).val = (j 1).val; omega

/-- An entry of result 1 is in point `t`'s block iff its row is among the point's 1024 rows. -/
theorem mem_blk8 (t : Fin cfg0.N) (i : S65536x128.Idx) :
    i ∈ ((cfg0.win 8).blk t).view.set ↔ ∀ a : Fin 2, win0_8.index t a * S1024x128.size a ≤ (i a).val ∧ (i a).val < win0_8.index t a * S1024x128.size a + S1024x128.size a := by
  show i ∈ ((View.whole main_v31_1).slice (win0_8.rect t)).set ↔ _
  rw [View.set_slice_whole, Rect.mem_set_unit]
  exact Iff.rfl

/-- Row `r` of result 1 is written by point `r / 1024`. -/
theorem cover8 (i : S65536x128.Idx) :
    ∃ t : Fin cfg0.N, (cfg0.win 8).flush t = true ∧ i ∈ ((cfg0.win 8).blk t).view.set := by
  have hi0 : (i 0).val < 65536 := (i 0).isLt
  have hi1 : (i 1).val < 128 := (i 1).isLt
  obtain ⟨t, ht⟩ : ∃ t : Fin cfg0.N, t.val = (i 0).val / 1024 :=
    ⟨⟨(i 0).val / 1024, by rw [show cfg0.N = 64 from N_0]; omega⟩, rfl⟩
  obtain ⟨e70, e71, e80, e81, e90, e91, -⟩ := idx_facts t
  refine ⟨t, flush0_8 t, ?_⟩
  rw [mem_blk8]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 128 ≤ (i 1).val ∧ (i 1).val < win0_8.index t (1 : Fin 2) * 128 + 128; omega

end Cert.KernelIdeal.Whole

end
-- ==== Proof.Result2.lean ====
/-
  Result 2, block by block: what grid point `t` writes back is block `t` of the lane-wise mix of the two products of the arrays
  the region finds, and row `r` of the result lies in the block of point `r / 1024`, so the blocks cover the array.
-/
import proofs.«167915_j7327214207194_1_alg».proof.Proof.Blocks

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.TwoProj

variable (m : (ℓ : Loc nD τ sig) → Buf (Elt Ideal) ℓ) (ρ : Dev nD → PrngReg)

/-! ## Result 2 -/

/-- What point `t` writes back to result 2 is block `t` of the mixed result of the arrays the region finds. -/
theorem flushed9_eq (c : Dev nD) (t : Fin cfg0.N) :
    (dats m 0 c).flushed 9 t
      = ((cfg0.win 9).blk t).view.read (Elt Ideal)
          (fused (aX m c) (aY m c) (aW0 m c) (aW1 m c) (fun q => aA0 m c (rowEntry q)) (fun q => aA1 m c (rowEntry q)) (fun q => aB m c (rowEntry q))) := by
  rw [Cert.KernelIdeal.Value.flushed9]
  obtain ⟨e70, e71, e80, e81, e90, e91, -⟩ := idx_facts t
  funext j
  have h0 : ((((cfg0.win 9).blk t).view.emb j) 0).val = t.val * 1024 + (j 0).val := by
    show win0_9.index t (0 : Fin 2) * 1024 + 1 * (j 0).val = t.val * 1024 + (j 0).val; omega
  have h1 : ((((cfg0.win 9).blk t).view.emb j) 1).val = (j 1).val := by
    show win0_9.index t (1 : Fin 2) * 128 + 1 * (j 1).val = (j 1).val; omega
  obtain ⟨r4, r5, r6⟩ := rows_at m c t j (((cfg0.win 9).blk t).view.emb j) h1
  show out0_9 (F := Ideal) (bX m c t) (bY m c t) (bW0 m c t) (bW1 m c t) (bA0 m c t) (bA1 m c t) (bB m c t) j
      = fused (aX m c) (aY m c) (aW0 m c) (aW1 m c) (fun q => aA0 m c (rowEntry q)) (fun q => aA1 m c (rowEntry q)) (fun q => aB m c (rowEntry q)) (((cfg0.win 9).blk t).view.emb j)
  refine (Body.store3_apply (bX m c t) (bY m c t) (bW0 m c t) (bW1 m c t) (bA0 m c t) (bA1 m c t) (bB m c t) j).trans ?_
  rw [prod0_at m c t j _ h0 h1, prod1_at m c t j _ h0 h1, r4, r5, r6]
  rfl

/-- An entry of result 2 is in point `t`'s block iff its row is among the point's 1024 rows. -/
theorem mem_blk9 (t : Fin cfg0.N) (i : S65536x128.Idx) :
    i ∈ ((cfg0.win 9).blk t).view.set ↔ ∀ a : Fin 2, win0_9.index t a * S1024x128.size a ≤ (i a).val ∧ (i a).val < win0_9.index t a * S1024x128.size a + S1024x128.size a := by
  show i ∈ ((View.whole main_v31_2).slice (win0_9.rect t)).set ↔ _
  rw [View.set_slice_whole, Rect.mem_set_unit]
  exact Iff.rfl

/-- Row `r` of result 2 is written by point `r / 1024`. -/
theorem cover9 (i : S65536x128.Idx) :
    ∃ t : Fin cfg0.N, (cfg0.win 9).flush t = true ∧ i ∈ ((cfg0.win 9).blk t).view.set := by
  have hi0 : (i 0).val < 65536 := (i 0).isLt
  have hi1 : (i 1).val < 128 := (i 1).isLt
  obtain ⟨t, ht⟩ : ∃ t : Fin cfg0.N, t.val = (i 0).val / 1024 :=
    ⟨⟨(i 0).val / 1024, by rw [show cfg0.N = 64 from N_0]; omega⟩, rfl⟩
  obtain ⟨e70, e71, e80, e81, e90, e91, -⟩ := idx_facts t
  refine ⟨t, flush0_9 t, ?_⟩
  rw [mem_blk9]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 128 ≤ (i 1).val ∧ (i 1).val < win0_9.index t (1 : Fin 2) * 128 + 128; omega

end Cert.KernelIdeal.Whole

end
-- ==== Proof.HostSide.lean ====
/-
  The arrays the kernel's region finds, where the host prepared them before the launch.

  Each weight matrix is whitened row by row (centre the row, divide by its norm) and transposed by host operations
  that are, one for one, those of the reference: the array the region finds IS the reference's stage, and is
  never opened here. Each lane vector is reshaped `[128] → [1, 128]`, so its entry `(0, q)` is the vector's entry `q`.
-/
import proofs.«167915_j7327214207194_1_alg».proof.Proof.Gen.KernelIdeal.Frame
import proofs.«167915_j7327214207194_1_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- A vector `[128]` reshaped to the row `[1, 128]`, read at `(0, q)`, is the vector at `q`: both sit at row-major
    position `q`. -/
theorem reshapeRow_apply (x : S128.Idx → EReal) (j : S1x128.Idx) :
    shapeCast S1x128 x shapeCasts_S128_S1x128 j = x (ix1 ⟨(j 1).val, (j 1).isLt⟩) := by
  refine shapeCast_apply x _ j _ ?_
  rw [Shape.rowMajor_val_one, Shape.rowMajor_val_two]
  have h0 : (j 0).val < 1 := (j 0).isLt
  show (j 1).val = (j 0).val * 128 + (j 1).val
  omega

/-- The first weight matrix as the region finds it: the reference's whitened, transposed first half. -/
theorem weights0 (c : Dev nD) :
    (V m c main_v26 : S1024x128.Idx → EReal)
      = Cert.ReferenceIdeal.Read.val_main_v26 (F := Ideal) (m ((c : Thread nD τ).loc main_arg2)) := by
  dsimp only [Gen.V, Gen.hostOps0]
  after_results_simp
  rfl

/-- The second weight matrix as the region finds it: the reference's whitened, transposed second half. -/
theorem weights1 (c : Dev nD) :
    (V m c main_v27 : S1024x128.Idx → EReal)
      = Cert.ReferenceIdeal.Read.val_main_v28 (F := Ideal) (m ((c : Thread nD τ).loc main_arg2)) := by
  dsimp only [Gen.V, Gen.hostOps0]
  after_results_simp
  rfl

/-- The first scale row at `(0, q)` is the fifth argument at `q`. -/
theorem scale0 (c : Dev nD) (j : S1x128.Idx) :
    (V m c main_v28 : S1x128.Idx → EReal) j
      = (m ((c : Thread nD τ).loc main_arg4) : S128.Idx → EReal) (ix1 ⟨(j 1).val, (j 1).isLt⟩) := by
  have e : (V m c main_v28 : S1x128.Idx → EReal)
      = shapeCast S1x128 (m ((c : Thread nD τ).loc main_arg4) : S128.Idx → EReal) shapeCasts_S128_S1x128 := by
    dsimp only [Gen.V, Gen.hostOps0]
    after_results_simp
    rfl
  rw [e]
  exact reshapeRow_apply _ j

/-- The second scale row at `(0, q)` is the sixth argument at `q`. -/
theorem scale1 (c : Dev nD) (j : S1x128.Idx) :
    (V m c main_v29 : S1x128.Idx → EReal) j
      = (m ((c : Thread nD τ).loc main_arg5) : S128.Idx → EReal) (ix1 ⟨(j 1).val, (j 1).isLt⟩) := by
  have e : (V m c main_v29 : S1x128.Idx → EReal)
      = shapeCast S1x128 (m ((c : Thread nD τ).loc main_arg5) : S128.Idx → EReal) shapeCasts_S128_S1x128 := by
    dsimp only [Gen.V, Gen.hostOps0]
    after_results_simp
    rfl
  rw [e]
  exact reshapeRow_apply _ j

/-- The bias row at `(0, q)` is the fourth argument at `q`. -/
theorem bias (c : Dev nD) (j : S1x128.Idx) :
    (V m c main_v30 : S1x128.Idx → EReal) j
      = (m ((c : Thread nD τ).loc main_arg3) : S128.Idx → EReal) (ix1 ⟨(j 1).val, (j 1).isLt⟩) := by
  have e : (V m c main_v30 : S1x128.Idx → EReal)
      = shapeCast S1x128 (m ((c : Thread nD τ).loc main_arg3) : S128.Idx → EReal) shapeCasts_S128_S1x128 := by
    dsimp only [Gen.V, Gen.hostOps0]
    after_results_simp
    rfl
  rw [e]
  exact reshapeRow_apply _ j

end Cert.KernelIdeal.HostSide

end
-- ==== Proof.RefValue.lean ====
/-
  The reference's three results as the specification's functions of the argument arrays.

  The reference whitens and transposes each half of the weight array (its stages `val_main_v26`, `val_main_v28`, kept
  closed), multiplies the activations by them with one `dot_general` each — entry `(r, j)` the sum over `k` of
  `x[r, k] · w[k, j]` —, and mixes the two products with the lane vectors, each spread first to a row `[1, 128]` and
  then down all rows, so that at `(r, j)` each is read at `j`.
-/
import proofs.«167915_j7327214207194_1_alg».proof.Proof.Gen.ReferenceIdeal.Read
import proofs.«167915_j7327214207194_1_alg».proof.Proof.Spec

noncomputable section

namespace Cert.ReferenceIdeal.RefValue

open Cert.ReferenceIdeal Cert.ReferenceIdeal.Read Idealize.ShloMosaic Idealize.ShloMosaic.ValueIdx Cert.TwoProj

/-- The first result: the first activation array times the first whitened weight matrix. -/
def out0 (x0 : S65536x1024.Idx → EReal) (x2 : S128x2048.Idx → EReal) : S65536x128.Idx → EReal :=
  proj x0 (val_main_v26 (F := Ideal) x2)

/-- The second result: the second activation array times the second whitened weight matrix. -/
def out1 (x1 : S65536x1024.Idx → EReal) (x2 : S128x2048.Idx → EReal) : S65536x128.Idx → EReal :=
  proj x1 (val_main_v28 (F := Ideal) x2)

/-- The third result: the two products scaled by the fifth and sixth arguments, plus the fourth, lane by lane. -/
def out2 (x0 x1 : S65536x1024.Idx → EReal) (x2 : S128x2048.Idx → EReal) (x3 x4 x5 : S128.Idx → EReal) :
    S65536x128.Idx → EReal :=
  fused x0 x1 (val_main_v26 (F := Ideal) x2) (val_main_v28 (F := Ideal) x2)
    (fun q => x4 (ix1 q)) (fun q => x5 (ix1 q)) (fun q => x3 (ix1 q))

/-- A lane vector spread to a row and then down the rows is read, at `(r, j)`, at `j`. -/
theorem laneIdx (i : S65536x128.Idx) : idx_main_v30 (idx_main_v31 i) = ix1 (lane i) :=
  funext fun a => Fin.ext (by match a with | ⟨0, _⟩ => rfl)

theorem ref0 (x0 : S65536x1024.Idx → EReal) (x2 : S128x2048.Idx → EReal) :
    val_main_v27 (F := Ideal) x0 x2 = out0 x0 x2 := by
  funext i
  rw [val_main_v27_apply]
  rfl

theorem ref1 (x1 : S65536x1024.Idx → EReal) (x2 : S128x2048.Idx → EReal) :
    val_main_v29 (F := Ideal) x1 x2 = out1 x1 x2 := by
  funext i
  rw [val_main_v29_apply]
  rfl

theorem ref2 (x0 x1 : S65536x1024.Idx → EReal) (x2 : S128x2048.Idx → EReal) (x3 x4 x5 : S128.Idx → EReal) :
    val_main_v39 (F := Ideal) x0 x1 x2 x3 x4 x5 = out2 x0 x1 x2 x3 x4 x5 := by
  funext i
  rw [val_main_v39_apply, val_main_v36_apply, val_main_v32_apply, val_main_v35_apply, val_main_v38_apply,
    val_main_v37_apply, val_main_v31_apply, val_main_v30_apply, val_main_v34_apply, val_main_v33_apply,
    ref0, ref1]
  show out0 x0 x2 i * x4 (idx_main_v30 (idx_main_v31 i)) + out1 x1 x2 i * x5 (idx_main_v30 (idx_main_v31 i))
      + x3 (idx_main_v30 (idx_main_v31 i)) = _
  rw [laneIdx]
  rfl

end Cert.ReferenceIdeal.RefValue

end
-- ==== Proof.KernelValue.lean ====
/-
  The kernel's three result arrays after the run, as functions of the argument arrays.

  Each result's blocks cover it (`Result0`, `Result1`, `Result2`), so it ends holding one function of the arrays the region
  finds; the activations are found as launched, the weight matrices are the reference's whitened, transposed halves,
  and each lane row at `(0, q)` is its argument vector at `q` (`HostSide`).
-/
import proofs.«167915_j7327214207194_1_alg».proof.Proof.Result0
import proofs.«167915_j7327214207194_1_alg».proof.Proof.Result1
import proofs.«167915_j7327214207194_1_alg».proof.Proof.Result2
import proofs.«167915_j7327214207194_1_alg».proof.Proof.HostSide
import proofs.«167915_j7327214207194_1_alg».proof.Proof.RefValue

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.TwoProj

variable (m : (ℓ : Loc nD τ sig) → Buf (Elt Ideal) ℓ) (ρ : Dev nD → PrngReg)

/-! ## The arrays after the run, as functions of the arguments -/

/-- Result 0 after the run. -/
theorem final7 (c : Dev nD) :
    (dats m 0 c).arrAt 7 cfg0.N
      = Cert.ReferenceIdeal.RefValue.out0 (m ((c : Thread nD τ).loc main_arg0)) (m ((c : Thread nD τ).loc main_arg2)) := by
  refine ((dats m 0 c).arrAt_eq_of_cover 7 (proj (aX m c) (aW0 m c)) (fun t _ => flushed7_eq m c t) cover7).trans ?_
  show proj (V m c main_arg0) (V m c main_v26) = _
  rw [V_main_arg0 m c, HostSide.weights0 m c]
  rfl

/-- Result 1 after the run. -/
theorem final8 (c : Dev nD) :
    (dats m 0 c).arrAt 8 cfg0.N
      = Cert.ReferenceIdeal.RefValue.out1 (m ((c : Thread nD τ).loc main_arg1)) (m ((c : Thread nD τ).loc main_arg2)) := by
  refine ((dats m 0 c).arrAt_eq_of_cover 8 (proj (aY m c) (aW1 m c)) (fun t _ => flushed8_eq m c t) cover8).trans ?_
  show proj (V m c main_arg1) (V m c main_v27) = _
  rw [V_main_arg1 m c, HostSide.weights1 m c]
  rfl

/-- Result 2 after the run. -/
theorem final9 (c : Dev nD) :
    (dats m 0 c).arrAt 9 cfg0.N
      = Cert.ReferenceIdeal.RefValue.out2 (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  refine ((dats m 0 c).arrAt_eq_of_cover 9 _ (fun t _ => flushed9_eq m c t) cover9).trans ?_
  have ea0 : (fun q : Fin 128 => aA0 m c (rowEntry q)) = fun q => (m ((c : Thread nD τ).loc main_arg4) : S128.Idx → EReal) (ix1 q) :=
    funext fun q => HostSide.scale0 m c (rowEntry q)
  have ea1 : (fun q : Fin 128 => aA1 m c (rowEntry q)) = fun q => (m ((c : Thread nD τ).loc main_arg5) : S128.Idx → EReal) (ix1 q) :=
    funext fun q => HostSide.scale1 m c (rowEntry q)
  have eb : (fun q : Fin 128 => aB m c (rowEntry q)) = fun q => (m ((c : Thread nD τ).loc main_arg3) : S128.Idx → EReal) (ix1 q) :=
    funext fun q => HostSide.bias m c (rowEntry q)
  rw [ea0, ea1, eb]
  show fused (V m c main_arg0) (V m c main_arg1) (V m c main_v26) (V m c main_v27) _ _ _ = _
  rw [V_main_arg0 m c, V_main_arg1 m c, HostSide.weights0 m c, HostSide.weights1 m c]
  rfl

/-- The kernel's run, read: each result array at its function of the arguments, the arguments unchanged. -/
theorem run : θ_run defs (onTc (τ := τ) (main (F := Ideal))) ⟨m, fun _ => 0, ρ⟩ fun r => ∀ c : Dev nD,
      r.2.mem ((c : Thread nD τ).loc main_v31_0) = Cert.ReferenceIdeal.RefValue.out0 (m ((c : Thread nD τ).loc main_arg0)) (m ((c : Thread nD τ).loc main_arg2))
      ∧ r.2.mem ((c : Thread nD τ).loc main_v31_1) = Cert.ReferenceIdeal.RefValue.out1 (m ((c : Thread nD τ).loc main_arg1)) (m ((c : Thread nD τ).loc main_arg2))
      ∧ r.2.mem ((c : Thread nD τ).loc main_v31_2) = Cert.ReferenceIdeal.RefValue.out2 (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final7 m c), (h c).2.1.trans (final8 m c),
      (h c).2.2.1.trans (final9 m c), (h c).2.2.2⟩)
    (Cert.KernelIdeal.Value.run_blocks m ρ)

end Cert.KernelIdeal.Whole

end
-- ==== Proof.lean ====
/-
  Two projections and their lane-wise mix: a Pallas kernel against its jnp reference, on the extended reals.

  Both programs whiten each half of a `[128, 2048]` weight array row by row and transpose it, with the same host
  operations; the kernel then computes, for 64 blocks of 1024 rows, `x · W0ᵀ`, `y · W1ᵀ` and
  `(x · W0ᵀ) · a0 + (y · W1ᵀ) · a1 + b` inside one region, the reference with two `dot_general`s and
  broadcasts. On the extended reals a matrix product into a zero accumulator and the host's `dot_general` are the
  same sum, roundings to bf16 are the identity, and tiling the rows changes nothing: the three result arrays
  are the same functions of the argument arrays (`RefValue.out0`, `out1`, `out2`). No finiteness is used, and the
  idealization rewrote nothing, so its conjunct is trivial.

  Modules: `Spec` (the functions), `KernelBody` (one block, entry by entry), `HostSide` (the arrays the region
  finds), `KernelValue` (blocks to arrays, the kernel's run), `RefValue` (the reference's results).
-/
import proofs.«167915_j7327214207194_1_alg».proof.Defs
import proofs.«167915_j7327214207194_1_alg».proof.Proof.Gen.Kernel
import proofs.«167915_j7327214207194_1_alg».proof.Proof.Gen.Kernel.Skeleton
import proofs.«167915_j7327214207194_1_alg».proof.Proof.Gen.Kernel.Launch
import proofs.«167915_j7327214207194_1_alg».proof.Proof.Gen.Kernel.Points
import proofs.«167915_j7327214207194_1_alg».proof.Proof.Gen.Kernel.Frame
import proofs.«167915_j7327214207194_1_alg».proof.Proof.Gen.KernelIdeal
import proofs.«167915_j7327214207194_1_alg».proof.Proof.Gen.KernelIdeal.Skeleton
import proofs.«167915_j7327214207194_1_alg».proof.Proof.Gen.KernelIdeal.Launch
import proofs.«167915_j7327214207194_1_alg».proof.Proof.Gen.KernelIdeal.Points
import proofs.«167915_j7327214207194_1_alg».proof.Proof.Gen.KernelIdeal.Frame
import proofs.«167915_j7327214207194_1_alg».proof.Proof.Gen.ReferenceIdeal
import proofs.«167915_j7327214207194_1_alg».proof.Proof.Gen.Pre_finite_inputs
import proofs.«167915_j7327214207194_1_alg».proof.Proof.Gen.KernelIdeal.Value
import proofs.«167915_j7327214207194_1_alg».proof.Proof.Gen.ReferenceIdeal.Run
import proofs.«167915_j7327214207194_1_alg».proof.Proof.Gen.ReferenceIdeal.Read
import proofs.«167915_j7327214207194_1_alg».proof.Proof.KernelValue
import proofs.«167915_j7327214207194_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- From memories that agree on the six arguments, both programs end with the three results at the same functions
    of the arguments: the kernel's blocks cover each result array with the whole-array product or mix
    (`Whole.run`), and the reference's `dot_general`s and broadcasts read entry by entry are those functions
    (`RefValue.ref0`, `ref1`, `ref2`). -/
theorem algebraic : Cert.algebraic_KernelIdeal_ReferenceIdeal := by
  intro m ρ m' ρ' _ hagree
  refine ⟨_, _, _, Cert.KernelIdeal.Whole.run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v27_eq, Cert.ReferenceIdeal.RefValue.ref0, (hagree c).1, (hagree c).2.2.1]
  · rw [Cert.ReferenceIdeal.Read.val_main_v29_eq, Cert.ReferenceIdeal.RefValue.ref1, (hagree c).2.1, (hagree c).2.2.1]
  · rw [Cert.ReferenceIdeal.Read.val_main_v39_eq, Cert.ReferenceIdeal.RefValue.ref2, (hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
